-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .bf16) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  main_v4
-- ==== Kernel.lean ====
abbrev S16384x4096 : Shape := ⟨2, ![16384, 4096]⟩
abbrev S16384x32 : Shape := ⟨2, ![16384, 32]⟩
abbrev S256x4096 : Shape := ⟨2, ![256, 4096]⟩
abbrev S256x32 : Shape := ⟨2, ![256, 32]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S16384x32, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S256x32, .f32⟩
  | .local _ .vmem, ⟨5, _⟩ => ⟨S256x32, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  slices_S256x4096_o0_0_S256x128 : S256x4096.Slices ![0, 0] S256x128
  reduces_S256x128_S256 : S256x128.Reduces [1] S256
  shapeCasts_S256_S256x1 : S256.ShapeCasts S256x1
  broadcasts_S256x1_S256x128 : S256x1.Broadcasts S256x128
  slices_S256x4096_o0_128_S256x128 : S256x4096.Slices ![0, 128] S256x128
  slices_S256x4096_o0_256_S256x128 : S256x4096.Slices ![0, 256] S256x128
  slices_S256x4096_o0_384_S256x128 : S256x4096.Slices ![0, 384] S256x128
  slices_S256x4096_o0_512_S256x128 : S256x4096.Slices ![0, 512] S256x128
  slices_S256x4096_o0_640_S256x128 : S256x4096.Slices ![0, 640] S256x128
  slices_S256x4096_o0_768_S256x128 : S256x4096.Slices ![0, 768] S256x128
  slices_S256x4096_o0_896_S256x128 : S256x4096.Slices ![0, 896] S256x128
  slices_S256x4096_o0_1024_S256x128 : S256x4096.Slices ![0, 1024] S256x128
  slices_S256x4096_o0_1152_S256x128 : S256x4096.Slices ![0, 1152] S256x128
  slices_S256x4096_o0_1280_S256x128 : S256x4096.Slices ![0, 1280] S256x128
  slices_S256x4096_o0_1408_S256x128 : S256x4096.Slices ![0, 1408] S256x128
  slices_S256x4096_o0_1536_S256x128 : S256x4096.Slices ![0, 1536] S256x128
  slices_S256x4096_o0_1664_S256x128 : S256x4096.Slices ![0, 1664] S256x128
  slices_S256x4096_o0_1792_S256x128 : S256x4096.Slices ![0, 1792] S256x128
  slices_S256x4096_o0_1920_S256x128 : S256x4096.Slices ![0, 1920] S256x128
  slices_S256x4096_o0_2048_S256x128 : S256x4096.Slices ![0, 2048] S256x128
  slices_S256x4096_o0_2176_S256x128 : S256x4096.Slices ![0, 2176] S256x128
  slices_S256x4096_o0_2304_S256x128 : S256x4096.Slices ![0, 2304] S256x128
  slices_S256x4096_o0_2432_S256x128 : S256x4096.Slices ![0, 2432] S256x128
  slices_S256x4096_o0_2560_S256x128 : S256x4096.Slices ![0, 2560] S256x128
  slices_S256x4096_o0_2688_S256x128 : S256x4096.Slices ![0, 2688] S256x128
  slices_S256x4096_o0_2816_S256x128 : S256x4096.Slices ![0, 2816] S256x128
  slices_S256x4096_o0_2944_S256x128 : S256x4096.Slices ![0, 2944] S256x128
  slices_S256x4096_o0_3072_S256x128 : S256x4096.Slices ![0, 3072] S256x128
  slices_S256x4096_o0_3200_S256x128 : S256x4096.Slices ![0, 3200] S256x128
  slices_S256x4096_o0_3328_S256x128 : S256x4096.Slices ![0, 3328] S256x128
  slices_S256x4096_o0_3456_S256x128 : S256x4096.Slices ![0, 3456] S256x128
  slices_S256x4096_o0_3584_S256x128 : S256x4096.Slices ![0, 3584] S256x128
  slices_S256x4096_o0_3712_S256x128 : S256x4096.Slices ![0, 3712] S256x128
  slices_S256x4096_o0_3840_S256x128 : S256x4096.Slices ![0, 3840] S256x128
  slices_S256x4096_o0_3968_S256x128 : S256x4096.Slices ![0, 3968] S256x128
  concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1 : Shape.Concatenates [S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128] S256x4096 1
  concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1 : Shape.Concatenates [S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1] S256x32 1
  inb_S256x32_S256x32_0_0 : ∀ a, (![0, 0] : Fin 2 → Nat) a + S256x32.size a ≤ S256x32.size a
  h_S256x32 : 0 < S256x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .bf16 = 32 ∨ (Rect.block (s := S16384x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S16384x32.size a
  hwx0_2 : ∀ i : grid0.Coords, EltTy.bits .f32 = 32 ∨ (Rect.block (s := S16384x32) S256x32.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S16384x32x128, .f32⟩
  | .hbm, ⟨3, _⟩ => ⟨S16384x32x128, .f32⟩
  | .hbm, ⟨4, _⟩ => ⟨S_, .f32⟩
  | .hbm, ⟨5, _⟩ => ⟨S16384x32, .f32⟩
  | .hbm, ⟨6, _⟩ => ⟨S16384x32x1, .f32⟩
  | .hbm, ⟨7, _⟩ => ⟨S_, .f32⟩
  | .hbm, ⟨8, _⟩ => ⟨S16384x32x1, .f32⟩
  | .hbm, ⟨9, _⟩ => ⟨S16384x32x1, .f32⟩
  | .hbm, ⟨10, _⟩ => ⟨S_, .f32⟩
  | .hbm, ⟨11, _⟩ => ⟨S16384x32x1, .f32⟩
  | .hbm, ⟨12, _⟩ => ⟨S16384x32x1, .f32⟩
  | .hbm, ⟨13, _⟩ => ⟨S16384x32x128, .f32⟩
  | .hbm, ⟨14, _⟩ => ⟨S16384x32x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x32x128, .f32⟩
  | .hbm, ⟨19, _⟩ => ⟨S16384x32x128, .f32⟩
  | .hbm, ⟨20, _⟩ => ⟨S_, .f32⟩
  | .hbm, ⟨21, _⟩ => ⟨S16384x32x128, .f32⟩
  | .hbm, ⟨22, _⟩ => ⟨S16384x32x128, .f32⟩
  | .hbm, ⟨23, _⟩ => ⟨S16384x4096, .f32⟩
  | .hbm, ⟨24, _⟩ => ⟨S16384x32, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bitsLt_bf16_f32 : FTy.bits .bf16 < FTy.bits .f32
  shapeCasts_S16384x4096_S16384x32x128 : S16384x4096.ShapeCasts S16384x32x128
  reducesTo_S16384x32x128_S16384x32_d2 : S16384x32x128.ReducesTo [2] S16384x32
  h_S_ : 0 < S_.numel
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S16384x32x1_S16384x32x128_0_1_2 : S16384x32x1.BroadcastsInDim S16384x32x128 (![0, 1, 2] : Fin 3 → Fin S16384x32x128.rank)
  bcast_S_S16384x32x128 : S_.BroadcastsInDim S16384x32x128 (![] : Fin 0 → Fin S16384x32x128.rank)
  shapeCasts_S16384x32x128_S16384x4096 : S16384x32x128.ShapeCasts S16384x4096
  shapeCasts_S16384x32x1_S16384x32 : S16384x32x1.ShapeCasts S16384x32

variable [Facts₀]

class Facts : Prop extends Facts₀ where

variable [Facts]
-- ==== Proof.Quantize.lean ====
/-
  Group-wise quantization of a matrix to the range [-448, 448], as functions of the matrix.

  A row of 4096 entries is cut into 32 groups of 128 consecutive entries. Each group has a scale: the largest
  magnitude among its 128 entries, raised to a small positive floor, divided by 448. Each entry is divided by its
  group's scale and the quotient clipped to [-448, 448]. Two results: the matrix of clipped quotients, and the
  matrix of scales (one per row and group).

  Everything is read on the extended reals: the maximum starts from -∞ (the word 0xFF800000), the floor, 448 and
  -448 are the values of their float words, and the quotient is the extended reals' total division.
-/
import Idealize.ShloMosaic.PureOps.Ideal
import Idealize.ShloMosaic.Lib.ValueIdx

noncomputable section

namespace Cert.Quantize

open Idealize.ShloMosaic Idealize.ShloMosaic.ValueIdx

/-- Entry `k` of group `g` sits in column `128 g + k`. -/
abbrev col (g : Fin 32) (k : Fin 128) : Fin 4096 := ⟨g.val * 128 + k.val, by omega⟩

/-- The group a column lies in. -/
abbrev grp (c : Fin 4096) : Fin 32 := ⟨c.val / 128, by omega⟩

/-- A column's place inside its group. -/
abbrev lane (c : Fin 4096) : Fin 128 := ⟨c.val % 128, Nat.mod_lt _ (by decide)⟩

/-- A column is the entry at its place of its group. -/
theorem col_grp_lane (c : Fin 4096) : col (grp c) (lane c) = c :=
  Fin.ext (by show c.val / 128 * 128 + c.val % 128 = c.val; omega)

/-- The largest magnitude among 128 extended reals, the maximum taken from -∞. -/
def amax (e : Fin 128 → EReal) : EReal :=
  (Finset.univ : Finset (Fin 128)).fold max (Ideal.ofBits .f32 0xFF800000#32)
    fun k => FloatOps.absf (F := Ideal) (φ := .f32) (e k)

/-- A group's scale: its largest magnitude, raised to the floor, over 448. -/
def scaleOf (e : Fin 128 → EReal) : EReal :=
  Ideal.div (max (amax e) (Ideal.ofBits .f32 0x38D1B717#32)) (Ideal.ofBits .f32 0x43E00000#32)

/-- An entry over a scale, clipped to [-448, 448]. -/
def clipDiv (x s : EReal) : EReal :=
  min (Ideal.ofBits .f32 0x43E00000#32) (max (Ideal.ofBits .f32 0xC3E00000#32) (Ideal.div x s))

/-- The scales of a matrix of `R` rows: at row `r` and group `g`, the scale of that row's entries in the group. -/
def scales {R : Nat} (A : (⟨2, ![R, 4096]⟩ : Shape).Idx → EReal) : (⟨2, ![R, 32]⟩ : Shape).Idx → EReal :=
  fun j => scaleOf fun k => A (ix2 (⟨(j 0).val, idx2_lt0 j⟩ : Fin R) (col ⟨(j 1).val, idx2_lt1 j⟩ k))

/-- The quantized matrix: each entry over the scale of its row's group, clipped. -/
def quantized {R : Nat} (A : (⟨2, ![R, 4096]⟩ : Shape).Idx → EReal) : (⟨2, ![R, 4096]⟩ : Shape).Idx → EReal :=
  fun i => clipDiv (A i)
    (scaleOf fun k => A (ix2 (⟨(i 0).val, idx2_lt0 i⟩ : Fin R) (col (grp ⟨(i 1).val, idx2_lt1 i⟩) k)))

theorem scales_ix2 {R : Nat} (A : (⟨2, ![R, 4096]⟩ : Shape).Idx → EReal) (r : Fin R) (g : Fin 32) :
    scales A (ix2 r g) = scaleOf fun k => A (ix2 r (col g k)) := rfl

theorem quantized_ix2 {R : Nat} (A : (⟨2, ![R, 4096]⟩ : Shape).Idx → EReal) (r : Fin R) (c : Fin 4096) :
    quantized A (ix2 r c) = clipDiv (A (ix2 r c)) (scaleOf fun k => A (ix2 r (col (grp c) k))) := rfl

end Cert.Quantize

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.GroupOps.lean ====
/-
  One group's arithmetic in the kernel body, read at an entry.

  The body treats a 256 × 128 slab of the block (256 rows, one group of 128 lanes) like this: magnitudes, the
  largest along each row from -∞, that column of 256 maxima raised to the floor and divided by 448 (the group's
  scale column), then the slab divided by the scale column repeated over the 128 lanes and clipped to [-448, 448].
  Read on the extended reals, entry (p, l) of the result is the slab's entry (p, l) over the scale of row p's 128
  entries, clipped; and the scale column's entry at row p is that scale.
-/
import proofs.«121164_j25056839205150_1_alg».proof.Proof.Gen.KernelIdeal
import Idealize.ShloMosaic.PureOps.Ideal.Laws
import proofs.«121164_j25056839205150_1_alg».proof.Proof.Quantize
import proofs.«121164_j25056839205150_1_alg».proof.Proof.LibColumnCast
import proofs.«121164_j25056839205150_1_alg».proof.Proof.LibColumnBroadcast
import proofs.«121164_j25056839205150_1_alg».proof.Proof.LibLaneSum

noncomputable section

namespace Cert.KernelIdeal.GroupOps

open Cert.KernelIdeal Idealize.ShloMosaic Idealize.ShloMosaic.ValueIdx Cert.Quantize

variable {F : FTy → Type} [FloatOps F]

/-- The scale column of a slab: row maxima of the magnitudes, raised to the floor, over 448. -/
def groupScale (xs : FVec F S256x128 .f32) : FVec F S256x1 .f32 :=
  divf
    (maximumf
      (shapeCast S256x1
        (multiReduction .maximumf [1] S256 (absf xs) 0xFF800000#32 Gen.reduces_S256x128_S256 (.inl rfl) rfl)
        Gen.shapeCasts_S256_S256x1)
      (broadcast S256x1 (Scalar.ofBits .f32 0x38D1B717#32)))
    (broadcast S256x1 (Scalar.ofBits .f32 0x43E00000#32))

/-- The slab over its scale column, clipped. -/
def groupQuant (xs : FVec F S256x128 .f32) : FVec F S256x128 .f32 :=
  minimumf (broadcast S256x128 (Scalar.ofBits .f32 0x43E00000#32))
    (maximumf (broadcast S256x128 (Scalar.ofBits .f32 0xC3E00000#32))
      (divf xs (broadcastTo S256x128 (groupScale xs) Gen.broadcasts_S256x1_S256x128)))

/-- The largest entry of each row, from -∞: at row `p` the fold of `max` over that row's 128 entries. -/
theorem rowMax_apply (v : FVec Ideal S256x128 .f32) (p : Fin 256) :
    multiReduction .maximumf [1] S256 v 0xFF800000#32 Gen.reduces_S256x128_S256 (.inl rfl) rfl (ix1 p)
      = (Finset.univ : Finset (Fin 128)).fold max (Ideal.ofBits .f32 0xFF800000#32) fun k => v (ix2 p k) := by
  refine (Ideal.multiReduction_maximumf_single v 0xFF800000#32 Gen.reduces_S256x128_S256 (.inl rfl) rfl (ix1 p)).trans ?_
  refine congrArg (fun f : Fin 128 → EReal => (Finset.univ : Finset (Fin 128)).fold max (Ideal.ofBits .f32 0xFF800000#32) f) ?_
  funext k
  exact congrArg v (reduces_rows_lift Gen.reduces_S256x128_S256 p k)

/-- The scale column at row `p` (its one column `u`) is the scale of the slab's row `p`. -/
theorem groupScale_apply (xs : FVec Ideal S256x128 .f32) (p : Fin 256) (u : Fin 1) :
    groupScale xs (ix2 p u) = scaleOf fun k => xs (ix2 p k) := by
  show Ideal.div (max (shapeCast S256x1
      (multiReduction .maximumf [1] S256 (absf xs) 0xFF800000#32 Gen.reduces_S256x128_S256 (.inl rfl) rfl)
      Gen.shapeCasts_S256_S256x1 (ix2 p u)) (Ideal.ofBits .f32 0x38D1B717#32)) (Ideal.ofBits .f32 0x43E00000#32) = _
  rw [shapeCast_a_a1_apply, rowMax_apply]
  rfl

/-- The clipped slab at `(p, l)`: the entry over row `p`'s scale, clipped. -/
theorem groupQuant_apply (xs : FVec Ideal S256x128 .f32) (p : Fin 256) (l : Fin 128) :
    groupQuant xs (ix2 p l) = clipDiv (xs (ix2 p l)) (scaleOf fun k => xs (ix2 p k)) := by
  show min (Ideal.ofBits .f32 0x43E00000#32) (max (Ideal.ofBits .f32 0xC3E00000#32)
    (Ideal.div (xs (ix2 p l)) (broadcastTo S256x128 (groupScale xs) Gen.broadcasts_S256x1_S256x128 (ix2 p l)))) = _
  rw [broadcastTo_a1_ab_apply, groupScale_apply]
  rfl

end Cert.KernelIdeal.GroupOps

end
-- ==== Proof.Body.lean ====
/-
  What the kernel body leaves in its two output blocks, as functions of the input block.

  The body cuts the 256 × 4096 input block into its 32 lane stretches of 128 columns, works on each stretch by
  itself (magnitudes, row maxima, scale column, clipped quotient), and lays the 32 clipped slabs side by side into
  the 256 × 4096 output block and the 32 scale columns side by side into the 256 × 32 output block. So, on the
  extended reals, the first output block is the quantized matrix of the input block and the second its matrix of
  scales: column c of the first comes from stretch c / 128 at lane c % 128, column g of the second from stretch g.
-/
import proofs.«121164_j25056839205150_1_alg».proof.Proof.Gen.KernelIdeal.Frame
import proofs.«121164_j25056839205150_1_alg».proof.Proof.GroupOps
import Idealize.ShloMosaic.Lib.Pipeline.Value

noncomputable section

namespace Cert.KernelIdeal.Body

open Cert.KernelIdeal Cert.KernelIdeal.Gen Cert.KernelIdeal.GroupOps Idealize.ShloMosaic Idealize.ShloMosaic.ValueIdx
  Cert.Quantize

variable {F : FTy → Type} [FloatOps F]

/-- Stretch `g`, the columns from `128 g` on, fits in the block. -/
theorem slices (g : Fin 32) : S256x4096.Slices ![0, 128 * g.val] S256x128 := by
  revert g; decide

/-- Lane stretch `g` of a block: its columns `128 g … 128 g + 127`. -/
def stretch (g : Fin 32) (x : FVec F S256x4096 .f32) : FVec F S256x128 .f32 :=
  extractStridedSlice S256x128 ![0, 128 * g.val] x (slices g)

/-- The 32 clipped slabs, one per stretch of the widened input block. -/
abbrev quantPieces (x0 : Vec F S256x4096 .bf16) : List ((s : Shape) × (s.Idx → F .f32)) :=
  List.ofFn fun g : Fin 32 =>
    (⟨S256x128, groupQuant (stretch g (extf .f32 x0 bitsLt_bf16_f32))⟩ : (s : Shape) × (s.Idx → F .f32))

/-- The 32 scale columns, one per stretch. -/
abbrev scalePieces (x0 : Vec F S256x4096 .bf16) : List ((s : Shape) × (s.Idx → F .f32)) :=
  List.ofFn fun g : Fin 32 =>
    (⟨S256x1, groupScale (stretch g (extf .f32 x0 bitsLt_bf16_f32))⟩ : (s : Shape) × (s.Idx → F .f32))

theorem catQuant (x0 : Vec F S256x4096 .bf16) : Shape.Concatenates ((quantPieces x0).map (·.1)) S256x4096 1 :=
  Gen.concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1

theorem catScale (x0 : Vec F S256x4096 .bf16) : Shape.Concatenates ((scalePieces x0).map (·.1)) S256x32 1 :=
  Gen.concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

/-- The clipped slabs side by side. -/
def quantBlock (x0 : Vec F S256x4096 .bf16) : FVec F S256x4096 .f32 :=
  concatenate S256x4096 1 (quantPieces x0) (catQuant x0)

/-- The scale columns side by side. -/
def scaleBlock (x0 : Vec F S256x4096 .bf16) : FVec F S256x32 .f32 :=
  concatenate S256x32 1 (scalePieces x0) (catScale x0)

theorem hz : (![0, 0] : Fin 2 → Nat) = fun _ => 0 := funext fun a => by fin_cases a <;> rfl

/-- The body's one store into the first output block is the clipped slabs side by side: the stored value's 32
    operands are, stretch by stretch, the same operations of the same stretch. -/
theorem out_quant (x0 : Vec F S256x4096 .bf16) : out0_1 x0 = quantBlock x0 := by
  unfold out0_1
  rw [View.canon_unit_zero hz]
  simp only [View.ld_unit_zero (S := S256x4096) hz]
  rfl

/-- The body's one store into the second output block is the scale columns side by side. -/
theorem out_scale (x0 : Vec F S256x4096 .bf16) : out0_2 x0 = scaleBlock x0 := by
  unfold out0_2
  rw [View.canon_unit_zero hz]
  simp only [View.ld_unit_zero (S := S256x4096) hz]
  rfl

/-- Entry `(p, l)` of stretch `g` is the block's entry at column `128 g + l`. -/
theorem stretch_apply (g : Fin 32) (x : FVec Ideal S256x4096 .f32) (p : Fin 256) (l : Fin 128) :
    stretch g x (ix2 p l) = x (ix2 p (col g l)) :=
  extractStridedSlice_apply _ x (slices g) (ix2 p l) (ix2 p (col g l)) fun a => by
    match a with
    | ⟨0, _⟩ => show p.val = 0 + p.val; omega
    | ⟨1, _⟩ => show g.val * 128 + l.val = 128 * g.val + l.val; omega

/-- On the extended reals the first output block is the quantized matrix of the input block. -/
theorem quantBlock_apply (x0 : FVec Ideal S256x4096 .bf16) (p : Fin 256) (c : Fin 4096) :
    quantBlock (F := Ideal) x0 (ix2 p c) = quantized (R := 256) x0 (ix2 p c) := by
  refine (concatenate_ofFn_apply (α := EReal) (t := S256x4096) (s₁ := S256x128) (1 : Fin 2)
    (fun g : Fin 32 => groupQuant (F := Ideal) (stretch g (extf .f32 x0 bitsLt_bf16_f32))) (catQuant (F := Ideal) x0) rfl 128 rfl
    (ix2 p c) (grp c) rfl (ix2 p (lane c)) rfl ?_).trans ?_
  · intro b hb
    match b with
    | ⟨0, _⟩ => rfl
    | ⟨1, _⟩ => exact absurd rfl hb
  · rw [groupQuant_apply, quantized_ix2]
    simp only [stretch_apply, extf_apply, col_grp_lane]

/-- On the extended reals the second output block is the matrix of scales of the input block. -/
theorem scaleBlock_apply (x0 : FVec Ideal S256x4096 .bf16) (p : Fin 256) (g : Fin 32) :
    scaleBlock (F := Ideal) x0 (ix2 p g) = scales (R := 256) x0 (ix2 p g) := by
  refine (concatenate_ofFn_apply (α := EReal) (t := S256x32) (s₁ := S256x1) (1 : Fin 2)
    (fun g : Fin 32 => groupScale (F := Ideal) (stretch g (extf .f32 x0 bitsLt_bf16_f32))) (catScale (F := Ideal) x0) rfl 1 rfl
    (ix2 p g) g (Nat.div_one _) (ix2 p (0 : Fin 1)) (Nat.mod_one _).symm ?_).trans ?_
  · intro b hb
    match b with
    | ⟨0, _⟩ => rfl
    | ⟨1, _⟩ => exact absurd rfl hb
  · rw [groupScale_apply, scales_ix2]
    simp only [stretch_apply, extf_apply]

end Cert.KernelIdeal.Body

end
-- ==== Proof.Arrays.lean ====
/-
  From blocks to arrays: what the kernel's two result arrays hold after the run.

  The grid has 64 points; at point t each of the three windows (the input matrix, the quantized matrix, the
  scales) takes the block of rows 256 t … 256 t + 255 and all columns. A row's groups lie inside the row, so the
  quantized matrix and the scales of a block of rows are the corresponding rows of those of the whole matrix:
  what point t writes back is block t of the whole matrix's quantized matrix (and of its scales). The 64 blocks of
  rows cover every row (row r is in block r / 256), so after the run the first result array is the quantized
  matrix of the argument and the second its matrix of scales.
-/
import proofs.«121164_j25056839205150_1_alg».proof.Proof.Gen.KernelIdeal.Value
import proofs.«121164_j25056839205150_1_alg».proof.Proof.Body

noncomputable section

namespace Cert.KernelIdeal.Arrays

open Cert.KernelIdeal Cert.KernelIdeal.Gen Cert.KernelIdeal.Body Idealize.ShloMosaic Idealize.ShloMosaic.TcCoe Idealize.SL.Sem
  Idealize.ShloMosaic.ValueIdx Cert.Quantize
open Idealize.ShloMosaic.Pipeline (Dat)

variable (m : (ℓ : Loc nD τ sig) → Buf (Elt Ideal) ℓ) (ρ : Dev nD → PrngReg)

/-- The three windows move together: at point `t` each takes block row `t`, block column 0 (decided over the grid). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem lt64 (t : Fin cfg0.N) : t.val < 64 := by
  have h := t.isLt
  have hN : cfg0.N = 64 := N_0
  omega

/-- Row `p` of block `t` is row `256 t + p` of the matrix. -/
abbrev rowAt (t : Fin cfg0.N) (p : Fin 256) : Fin 16384 := ⟨t.val * 256 + p.val, by have := lt64 t; omega⟩

/-- The input block at point `t`, read at `(p, q)`: the argument matrix at row `256 t + p`, column `q`. -/
theorem in_read (c : Dev nD) (t : Fin cfg0.N) (p : Fin 256) (q : Fin 4096) :
    iblk m c 0 t (ix2 p q) = V m c main_arg0 (ix2 (rowAt t p) q) := by
  obtain ⟨e0, e1, -⟩ := idx_facts t
  show V m c main_arg0 (((cfg0.win 0).blk t).view.emb (ix2 p q)) = _
  refine congrArg (V m c main_arg0) ?_
  funext a; apply Fin.ext
  match a with
  | ⟨0, _⟩ => show win0_0.index t (0 : Fin 2) * 256 + 1 * p.val = t.val * 256 + p.val; omega
  | ⟨1, _⟩ => show win0_0.index t (1 : Fin 2) * 4096 + 1 * q.val = q.val; omega

/-- Where entry `(p, q)` of the first output block sits in its array. -/
theorem out1_emb (t : Fin cfg0.N) (p : Fin 256) (q : Fin 4096) :
    ((cfg0.win 1).blk t).view.emb (ix2 p q) = ix2 (rowAt t p) q := by
  obtain ⟨-, -, e2, e3, -⟩ := idx_facts t
  funext a; apply Fin.ext
  match a with
  | ⟨0, _⟩ => show win0_1.index t (0 : Fin 2) * 256 + 1 * p.val = t.val * 256 + p.val; omega
  | ⟨1, _⟩ => show win0_1.index t (1 : Fin 2) * 4096 + 1 * q.val = q.val; omega

/-- Where entry `(p, g)` of the second output block sits in its array. -/
theorem out2_emb (t : Fin cfg0.N) (p : Fin 256) (g : Fin 32) :
    ((cfg0.win 2).blk t).view.emb (ix2 p g) = ix2 (rowAt t p) g := by
  obtain ⟨-, -, -, -, e4, e5⟩ := idx_facts t
  funext a; apply Fin.ext
  match a with
  | ⟨0, _⟩ => show win0_2.index t (0 : Fin 2) * 256 + 1 * p.val = t.val * 256 + p.val; omega
  | ⟨1, _⟩ => show win0_2.index t (1 : Fin 2) * 32 + 1 * g.val = g.val; omega

/-- What point `t` writes back to the first result array is block `t` of the argument's quantized matrix. -/
theorem flushedQuant_eq (c : Dev nD) (t : Fin cfg0.N) :
    (dats m 0 c).flushed 1 t
      = ((cfg0.win 1).blk t).view.read (Elt Ideal) (quantized (R := 16384) (V m c main_arg0)) := by
  rw [Value.flushed1, out_quant]
  funext y
  obtain ⟨p, q, rfl⟩ : ∃ (p : Fin 256) (q : Fin 4096), y = ix2 p q := ⟨y 0, y 1, eq_ix2 y⟩
  show quantBlock (F := Ideal) (iblk m c 0 t) (ix2 p q)
    = quantized (R := 16384) (V m c main_arg0) (((cfg0.win 1).blk t).view.emb (ix2 p q))
  rw [quantBlock_apply (iblk m c 0 t) p q, out1_emb, quantized_ix2, quantized_ix2]
  simp only [in_read]

/-- What point `t` writes back to the second result array is block `t` of the argument's matrix of scales. -/
theorem flushedScale_eq (c : Dev nD) (t : Fin cfg0.N) :
    (dats m 0 c).flushed 2 t
      = ((cfg0.win 2).blk t).view.read (Elt Ideal) (scales (R := 16384) (V m c main_arg0)) := by
  rw [Value.flushed2, out_scale]
  funext y
  obtain ⟨p, g, rfl⟩ : ∃ (p : Fin 256) (g : Fin 32), y = ix2 p g := ⟨y 0, y 1, eq_ix2 y⟩
  show scaleBlock (F := Ideal) (iblk m c 0 t) (ix2 p g)
    = scales (R := 16384) (V m c main_arg0) (((cfg0.win 2).blk t).view.emb (ix2 p g))
  rw [scaleBlock_apply (iblk m c 0 t) p g, out2_emb, scales_ix2, scales_ix2]
  simp only [in_read]

/-- An index of the first result array is in point `t`'s block iff each coordinate is in the block's range. -/
theorem mem_blk1 (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0_0).slice (win0_1.rect t)).set ↔ _
  rw [View.set_slice_whole, Rect.mem_set_unit]
  exact Iff.rfl

/-- The same for the second result array. -/
theorem mem_blk2 (t : Fin cfg0.N) (i : S16384x32.Idx) :
    i ∈ ((cfg0.win 2).blk t).view.set ↔ ∀ a : Fin 2, win0_2.index t a * S256x32.size a ≤ (i a).val
      ∧ (i a).val < win0_2.index t a * S256x32.size a + S256x32.size a := by
  show i ∈ ((View.whole main_v0_1).slice (win0_2.rect t)).set ↔ _
  rw [View.set_slice_whole, Rect.mem_set_unit]
  exact Iff.rfl

/-- The point whose block of rows holds row `r`. -/
abbrev pointOf (r : Nat) (hr : r < 16384) : Fin cfg0.N :=
  ⟨r / 256, by have hN : cfg0.N = 64 := N_0; rw [hN]; omega⟩

/-- Every entry of the first result array is in some point's block: row `r` in block `r / 256`. -/
theorem cover1 (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨-, -, e2, e3, -⟩ := idx_facts (pointOf (i 0).val hi0)
  have ht : (pointOf (i 0).val hi0).val = (i 0).val / 256 := rfl
  refine ⟨pointOf (i 0).val hi0, flush0_1 _, ?_⟩
  rw [mem_blk1]
  intro a
  match a with
  | ⟨0, _⟩ =>
    show win0_1.index (pointOf (i 0).val hi0) (0 : Fin 2) * 256 ≤ (i 0).val
      ∧ (i 0).val < win0_1.index (pointOf (i 0).val hi0) (0 : Fin 2) * 256 + 256
    omega
  | ⟨1, _⟩ =>
    show win0_1.index (pointOf (i 0).val hi0) (1 : Fin 2) * 4096 ≤ (i 1).val
      ∧ (i 1).val < win0_1.index (pointOf (i 0).val hi0) (1 : Fin 2) * 4096 + 4096
    omega

/-- Every entry of the second result array is in some point's block. -/
theorem cover2 (i : S16384x32.Idx) :
    ∃ t : Fin cfg0.N, (cfg0.win 2).flush t = true ∧ i ∈ ((cfg0.win 2).blk t).view.set := by
  have hi0 : (i 0).val < 16384 := (i 0).isLt
  have hi1 : (i 1).val < 32 := (i 1).isLt
  obtain ⟨-, -, -, -, e4, e5⟩ := idx_facts (pointOf (i 0).val hi0)
  have ht : (pointOf (i 0).val hi0).val = (i 0).val / 256 := rfl
  refine ⟨pointOf (i 0).val hi0, flush0_2 _, ?_⟩
  rw [mem_blk2]
  intro a
  match a with
  | ⟨0, _⟩ =>
    show win0_2.index (pointOf (i 0).val hi0) (0 : Fin 2) * 256 ≤ (i 0).val
      ∧ (i 0).val < win0_2.index (pointOf (i 0).val hi0) (0 : Fin 2) * 256 + 256
    omega
  | ⟨1, _⟩ =>
    show win0_2.index (pointOf (i 0).val hi0) (1 : Fin 2) * 32 ≤ (i 1).val
      ∧ (i 1).val < win0_2.index (pointOf (i 0).val hi0) (1 : Fin 2) * 32 + 32
    omega

/-- After the run the first result array is the quantized matrix of the argument. -/
theorem finalQuant (c : Dev nD) :
    (dats m 0 c).arrAt 1 cfg0.N = quantized (R := 16384) (m ((c : Thread nD τ).loc main_arg0)) :=
  (dats m 0 c).arrAt_eq_of_cover 1 (quantized (R := 16384) (V m c main_arg0)) (fun t _ => flushedQuant_eq m c t) cover1

/-- After the run the second result array is the matrix of scales of the argument. -/
theorem finalScale (c : Dev nD) :
    (dats m 0 c).arrAt 2 cfg0.N = scales (R := 16384) (m ((c : Thread nD τ).loc main_arg0)) :=
  (dats m 0 c).arrAt_eq_of_cover 2 (scales (R := 16384) (V m c main_arg0)) (fun t _ => flushedScale_eq m c t) cover2

/-- The kernel's run on the extended reals: every weakly fair execution ends with the first result the quantized
    matrix of the argument, the second its scales, the argument unchanged. -/
theorem run : θ_run defs (onTc (τ := τ) (main (F := Ideal))) ⟨m, fun _ => 0, ρ⟩ fun r => ∀ c : Dev nD,
      r.2.mem ((c : Thread nD τ).loc main_v0_0) = quantized (R := 16384) (m ((c : Thread nD τ).loc main_arg0))
      ∧ r.2.mem ((c : Thread nD τ).loc main_v0_1) = scales (R := 16384) (m ((c : Thread nD τ).loc main_arg0))
      ∧ r.2.mem ((c : Thread nD τ).loc main_arg0) = m ((c : Thread nD τ).loc main_arg0) :=
  (θ_run defs _ _).mono (fun r h c => ⟨(h c).1.trans (finalQuant m c), (h c).2.1.trans (finalScale m c), (h c).2.2⟩)
    (Value.run_blocks m ρ)

end Cert.KernelIdeal.Arrays

end
-- ==== Proof.Reference.lean ====
/-
  The reference's two results are the quantized matrix and the matrix of scales.

  The reference reshapes the 16384 × 4096 matrix to 16384 × 32 × 128, so that entry (r, g, k) is the matrix's entry
  at row r and column 128 g + k; takes magnitudes and the maximum over the last axis from -∞; raises it to the
  floor and divides by 448 (the scale of row r's group g); divides every entry by its group's scale, clips to
  [-448, 448], and reshapes back: entry (r, c) of the result comes from (r, c / 128, c % 128). Its second result is
  the scales, reshaped from 16384 × 32 × 1 to 16384 × 32.
-/
import proofs.«121164_j25056839205150_1_alg».proof.Proof.Gen.ReferenceIdeal.Read
import Idealize.ShloMosaic.PureOps.Ideal.Laws
import proofs.«121164_j25056839205150_1_alg».proof.Proof.Quantize

noncomputable section

namespace Cert.ReferenceIdeal.Quant

open Cert.ReferenceIdeal Cert.ReferenceIdeal.Gen Cert.ReferenceIdeal.Read Idealize.ShloMosaic Idealize.ShloMosaic.ValueIdx
  Cert.Quantize

/-- Dropping the last axis of the three-axis shape leaves the row and group axes. -/
theorem reduces3 : S16384x32x128.Reduces [2] S16384x32 := by decide

/-- Inserting `k` on the last axis over `(r, g)` gives `(r, g, k)`. -/
theorem lift3 (r : Fin 16384) (g : Fin 32) (k : Fin 128) : reduces3.lift (ix2 r g) k = ix3 r g k := by
  funext ax; apply Fin.ext
  show reduces3.liftVal (ix2 r g) k.val ax = (ix3 r g k ax).val
  unfold Shape.Reduces.liftVal
  match ax with
  | ⟨0, _⟩ => rfl
  | ⟨1, _⟩ => rfl
  | ⟨2, _⟩ => rfl

/-- Entry `(r, g, k)` of the reshaped matrix is the matrix's entry at row `r`, column `128 g + k`. -/
theorem idx_v1 (r : Fin 16384) (g : Fin 32) (k : Fin 128) : idx_main_v1 (ix3 r g k) = ix2 r (col g k) := by
  funext a; apply Fin.ext
  have hg := g.isLt; have hk := k.isLt
  match a with
  | ⟨0, _⟩ => show ((r.val * 32 + g.val) * 128 + k.val) / 4096 = r.val; omega
  | ⟨1, _⟩ => show ((r.val * 32 + g.val) * 128 + k.val) % 4096 = g.val * 128 + k.val; omega

/-- Entry `(r, c)` of the result reshaped back comes from `(r, c / 128, c % 128)`. -/
theorem idx_v12 (r : Fin 16384) (c : Fin 4096) : idx_main_v12 (ix2 r c) = ix3 r (grp c) (lane c) := by
  funext a; apply Fin.ext
  have hc := c.isLt
  match a with
  | ⟨0, _⟩ => show (r.val * 4096 + c.val) / 4096 = r.val; omega
  | ⟨1, _⟩ => show (r.val * 4096 + c.val) / 128 % 32 = c.val / 128; omega
  | ⟨2, _⟩ => show (r.val * 4096 + c.val) % 128 = c.val % 128; omega

/-- Entry `(r, g)` of the scales reshaped to two axes comes from `(r, g, 0)`. -/
theorem idx_v13 (r : Fin 16384) (g : Fin 32) : idx_main_v13 (ix2 r g) = ix3 r g (0 : Fin 1) := by
  funext a; apply Fin.ext
  have hg := g.isLt
  match a with
  | ⟨0, _⟩ => show (r.val * 32 + g.val) / 32 = r.val; omega
  | ⟨1, _⟩ => show (r.val * 32 + g.val) / 1 % 32 = g.val; omega
  | ⟨2, _⟩ => rfl

/-- The scale of `(r, g)` repeated along the 128 entries of the group: read at `(r, g, l)` it is the one at `(r, g, 0)`. -/
theorem idx_v9 (r : Fin 16384) (g : Fin 32) (l : Fin 128) : idx_main_v9 (ix3 r g l) = ix3 r g (0 : Fin 1) := by
  funext a
  match a with
  | ⟨0, _⟩ => rfl
  | ⟨1, _⟩ => rfl
  | ⟨2, _⟩ => rfl

/-- The maximum's unit last axis put back: `(r, g, u)` reads the maximum at `(r, g)`. -/
theorem idx_v4 (r : Fin 16384) (g : Fin 32) (u : Fin 1) : idx_main_v4 (ix3 r g u) = ix2 r g := by
  funext a
  match a with
  | ⟨0, _⟩ => rfl
  | ⟨1, _⟩ => rfl

/-- The maximum over the last axis from -∞, at `(r, g)`: the fold of `max` over the 128 entries `(r, g, k)`. -/
theorem hostMax_lastAxis (x : FVec Ideal S16384x32x128 .f32) (r : Fin 16384) (g : Fin 32) :
    Host.reduce FloatOps.maximumf x (constant (F := Ideal) S_ .f32 0xFF800000#32) reducesTo_S16384x32x128_S16384x32_d2 h_S_ (ix2 r g)
      = (Finset.univ : Finset (Fin 128)).fold max (Ideal.ofBits .f32 0xFF800000#32) fun k => x (ix3 r g k) := by
  rw [Host.reduce_eq_fold_single FloatOps.maximumf x _ reducesTo_S16384x32x128_S16384x32_d2 reduces3 h_S_]
  exact congrArg (fun f : Fin 128 → EReal => Finset.fold max (Ideal.ofBits .f32 0xFF800000#32) f (Finset.univ : Finset (Fin 128)))
    (funext fun k => congrArg x (lift3 r g k))

/-- The reference's maximum over the last axis at `(r, g)`: the largest magnitude of row `r`'s group `g`. -/
theorem amax_ref (A : (⟨S16384x4096, .bf16⟩ : BufTy).Contents (Elt Ideal)) (r : Fin 16384) (g : Fin 32) :
    val_main_v3 (F := Ideal) A (ix2 r g) = amax fun k => A (ix2 r (col g k)) := by
  unfold val_main_v3 val_main_cst
  rw [hostMax_lastAxis]
  unfold amax
  refine congrArg (fun f : Fin 128 → EReal => (Finset.univ : Finset (Fin 128)).fold max (Ideal.ofBits .f32 0xFF800000#32) f) ?_
  funext k
  rw [val_main_v2_apply, val_main_v1_apply, val_main_v0_apply, idx_v1]
  rfl

/-- The reference's scale at `(r, g, u)`: the scale of row `r`'s group `g`. -/
theorem scale_ref (A : (⟨S16384x4096, .bf16⟩ : BufTy).Contents (Elt Ideal)) (r : Fin 16384) (g : Fin 32) (u : Fin 1) :
    val_main_v8 (F := Ideal) A (ix3 r g u) = scaleOf fun k => A (ix2 r (col g k)) := by
  rw [val_main_v8_apply, val_main_v6_apply, val_main_v4_apply, idx_v4, amax_ref, val_main_v5_apply, val_main_cst_0_apply,
    val_main_v7_apply, val_main_cst_1_apply]
  rfl

/-- The reference's second result is the matrix of scales. -/
theorem scales_eq (A : (⟨S16384x4096, .bf16⟩ : BufTy).Contents (Elt Ideal)) :
    val_main_v13 (F := Ideal) A = scales (R := 16384) A := by
  funext j
  obtain ⟨r, g, rfl⟩ : ∃ (r : Fin 16384) (g : Fin 32), j = ix2 r g := ⟨j 0, j 1, eq_ix2 j⟩
  rw [val_main_v13_apply, idx_v13, scale_ref, scales_ix2]

/-- The reference's first result is the quantized matrix. -/
theorem quantized_eq (A : (⟨S16384x4096, .bf16⟩ : BufTy).Contents (Elt Ideal)) :
    val_main_v12 (F := Ideal) A = quantized (R := 16384) A := by
  funext i
  obtain ⟨r, c, rfl⟩ : ∃ (r : Fin 16384) (c : Fin 4096), i = ix2 r c := ⟨i 0, i 1, eq_ix2 i⟩
  rw [val_main_v12_apply, idx_v12, val_main_v11_apply, val_main_call0_v4_apply, val_main_call0_v3_apply,
    val_main_cst_3_apply, val_main_call0_v2_apply, val_main_call0_v1_apply, val_main_call0_v0_apply, val_main_cst_2_apply,
    val_main_v10_apply, val_main_v1_apply, val_main_v0_apply, idx_v1, val_main_v9_apply, idx_v9, scale_ref,
    quantized_ix2, col_grp_lane]
  rfl

end Cert.ReferenceIdeal.Quant

end
-- ==== Proof.lean ====
/-
  Group-wise quantization to [-448, 448]: the kernel against its reference, on the extended reals.

  Both programs take a 16384 × 4096 matrix and return two matrices. A row is cut into 32 groups of 128 consecutive
  entries; a group's scale is its largest magnitude (the maximum taken from -∞), raised to a small positive floor,
  divided by 448; the first result is every entry over its group's scale, clipped to [-448, 448], and the second
  the scales, one per row and group (Proof/Quantize.lean states both as functions of the matrix).

  The kernel walks the matrix in 64 blocks of 256 rows. In a block it cuts the 4096 lanes into their 32 stretches
  of 128, computes each stretch's row maxima, scale column and clipped quotient, and lays the 32 results side by
  side (Proof/GroupOps.lean, Proof/Body.lean); a group never leaves its row, so a block's results are the block's
  rows of the whole matrix's results, and the 64 blocks cover all rows (Proof/Arrays.lean). The reference reshapes
  the matrix to 16384 × 32 × 128, reduces over the last axis, and reshapes back: entry (r, 128 g + k) of the matrix
  is entry (r, g, k) there (Proof/Reference.lean). The two sides use the same float words for -∞, the floor, 448
  and -448, the same order of minimum and maximum in the clip, and division on both sides; the only law needed
  between them is that a maximum over a finite set does not depend on the order it is taken in, which holds on
  the extended reals without any finiteness. So the precondition is never opened.

  The idealized kernel is the kernel's own text read on the extended reals (no rewrite was applied), so there is
  nothing to preserve beyond that.
-/
import proofs.«121164_j25056839205150_1_alg».proof.Defs
import proofs.«121164_j25056839205150_1_alg».proof.Proof.Gen.Kernel
import proofs.«121164_j25056839205150_1_alg».proof.Proof.Gen.Kernel.Skeleton
import proofs.«121164_j25056839205150_1_alg».proof.Proof.Gen.Kernel.Launch
import proofs.«121164_j25056839205150_1_alg».proof.Proof.Gen.Kernel.Points
import proofs.«121164_j25056839205150_1_alg».proof.Proof.Gen.Kernel.Frame
import proofs.«121164_j25056839205150_1_alg».proof.Proof.Gen.KernelIdeal
import proofs.«121164_j25056839205150_1_alg».proof.Proof.Gen.KernelIdeal.Skeleton
import proofs.«121164_j25056839205150_1_alg».proof.Proof.Gen.KernelIdeal.Launch
import proofs.«121164_j25056839205150_1_alg».proof.Proof.Gen.KernelIdeal.Points
import proofs.«121164_j25056839205150_1_alg».proof.Proof.Gen.KernelIdeal.Frame
import proofs.«121164_j25056839205150_1_alg».proof.Proof.Gen.ReferenceIdeal
import proofs.«121164_j25056839205150_1_alg».proof.Proof.Gen.KernelIdeal.Value
import proofs.«121164_j25056839205150_1_alg».proof.Proof.Gen.ReferenceIdeal.Run
import proofs.«121164_j25056839205150_1_alg».proof.Proof.Gen.ReferenceIdeal.Read
import proofs.«121164_j25056839205150_1_alg».proof.Proof.Gen.Pre_finite_inputs
import proofs.«121164_j25056839205150_1_alg».proof.Proof.Arrays
import proofs.«121164_j25056839205150_1_alg».proof.Proof.Reference
import Idealize.ShloMosaic.Adequacy
import Idealize.ShloMosaic.Init

noncomputable section

namespace Cert.Proof

open Idealize.ShloMosaic Idealize.SL.Sem Cert.Quantize

/-- The kernel as printed runs and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the argument both programs end with the argument's quantized matrix and its matrix
    of scales: the kernel block by block (Proof/Arrays.lean), the reference through its reshape
    (Proof/Reference.lean). -/
theorem algebraic : Cert.algebraic_KernelIdeal_ReferenceIdeal := by
  intro m ρ m' ρ' _ hagree
  refine ⟨fun c => quantized (R := 16384) (m ((c.tc : Thread Cert.KernelIdeal.nD Cert.KernelIdeal.τ).loc Cert.KernelIdeal.main_arg0)),
    fun c => scales (R := 16384) (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v12_eq, Cert.ReferenceIdeal.Quant.quantized_eq, hagree c]
  · rw [(h c).2.1, Cert.ReferenceIdeal.Read.val_main_v13_eq, Cert.ReferenceIdeal.Quant.scales_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
